-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4 : Shape := ⟨1, ![4]⟩
abbrev S4096x4096 : Shape := ⟨2, ![4096, 4096]⟩
abbrev S5x4096x32 : Shape := ⟨3, ![5, 4096, 32]⟩
abbrev S4096x32 : Shape := ⟨2, ![4096, 32]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S5x4096x32 : S_.BroadcastsInDim S5x4096x32 (![] : Fin 0 → Fin S5x4096x32.rank)
  reducesTo_S5x4096x32_S_d0_1_2 : S5x4096x32.ReducesTo [0, 1, 2] S_
  bcast_S_S4096x32 : S_.BroadcastsInDim S4096x32 (![] : Fin 0 → Fin S4096x32.rank)
  reducesTo_S4096x32_S_d0_1 : S4096x32.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg1 : IVec S4 32) (main_v13 : IVec S_ 1) (main_v16 : IVec S4096x32 1) : IVec S_ 1 :=
  let main_c_5 : IVec S_ 1 := constantI S_ 1 1#1
  let main_v17 : IVec S_ 1 := (fun x v => Host.reduce IntOp.andi x v reducesTo_S4096x32_S_d0_1 h_S_) main_v16 main_c_5
  let main_v18 : IVec S_ 1 := andi main_v13 main_v17
  let main_c_6 : IVec S_ 32 := constantI S_ 32 0#32
  let main_v19 : IVec S4 32 := broadcastInDim S4 ![] bcast_S_S4 main_c_6
  let main_v20 : IVec S4 1 := cmpi .sge main_arg1 main_v19
  let main_c_7 : IVec S_ 32 := constantI S_ 32 5#32
  let main_v21 : IVec S4 32 := broadcastInDim S4 ![] bcast_S_S4 main_c_7
  let main_v22 : IVec S4 1 := cmpi .slt main_arg1 main_v21
  let main_v23 : IVec S4 1 := andi main_v20 main_v22
  let main_c_8 : IVec S_ 1 := constantI S_ 1 1#1
  let main_v24 : IVec S_ 1 := (fun x v => Host.reduce IntOp.andi x v reducesTo_S4_S_d0 h_S_) main_v23 main_c_8
  let main_v25 : IVec S_ 1 := andi main_v18 main_v24
  main_v25

def fn {F : FTy → Type} [FloatOps F] (main_arg0 : FVec F S4x2048x4096 .f32) (main_arg1 : IVec S4 32) (main_arg2 : FVec F S4096x4096 .f32) (main_arg3 : FVec F S5x4096x32 .f32) (main_arg4 : FVec F S4096x32 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg2
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S5x4096x32 .f32 := Host.absf main_arg3
  let main_cst_2 : FVec F S_ .f32 := constant S_ .f32 0x7F800000#32
  let main_v10 : FVec F S5x4096x32 .f32 := broadcastInDim S5x4096x32 ![] bcast_S_S5x4096x32 main_cst_2
  let main_v11 : IVec S5x4096x32 1 := cmpf .olt main_v9 main_v10
  let main_c_3 : IVec S_ 1 := constantI S_ 1 1#1
  let main_v12 : IVec S_ 1 := (fun x v => Host.reduce IntOp.andi x v reducesTo_S5x4096x32_S_d0_1_2 h_S_) main_v11 main_c_3
  let main_v13 : IVec S_ 1 := andi main_v8 main_v12
  let main_v14 : FVec F S4096x32 .f32 := Host.absf main_arg4
  let main_cst_4 : FVec F S_ .f32 := constant S_ .f32 0x7F800000#32
  let main_v15 : FVec F S4096x32 .f32 := broadcastInDim S4096x32 ![] bcast_S_S4096x32 main_cst_4
  let main_v16 : IVec S4096x32 1 := cmpf .olt main_v14 main_v15
  fn_part1 (F := F) main_arg1 main_v13 main_v16
-- ==== Kernel.lean ====
abbrev S4x2048x4096 : Shape := ⟨3, ![4, 2048, 4096]⟩
abbrev S4 : Shape := ⟨1, ![4]⟩
abbrev S4096x4096 : Shape := ⟨2, ![4096, 4096]⟩
abbrev S5x4096x32 : Shape := ⟨3, ![5, 4096, 32]⟩
abbrev S4096x32 : Shape := ⟨2, ![4096, 32]⟩
abbrev S1x128x4096 : Shape := ⟨3, ![1, 128, 4096]⟩
abbrev S1x4096x32 : Shape := ⟨3, ![1, 4096, 32]⟩
abbrev S1 : Shape := ⟨1, ![1]⟩
abbrev S_ : Shape := ⟨0, ![]⟩
abbrev S128x4096 : Shape := ⟨2, ![128, 4096]⟩
abbrev S128x32 : Shape := ⟨2, ![128, 32]⟩

abbrev nBuf : Space → Nat
  | .hbm => 6
  | .vmem => 8
  | .smem => 1
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S5x4096x32, .f32⟩
  | .hbm, ⟨3, _⟩ => ⟨S4096x32, .f32⟩
  | .hbm, ⟨4, _⟩ => ⟨S4096x4096, .bf16⟩
  | .hbm, ⟨5, _⟩ => ⟨S4x2048x4096, .f32⟩
  | .local _ .vmem, ⟨0, _⟩ => ⟨S1x128x4096, .f32⟩
  | .local _ .vmem, ⟨1, _⟩ => ⟨S1x128x4096, .f32⟩
  | .local _ .vmem, ⟨2, _⟩ => ⟨S1x4096x32, .f32⟩
  | .local _ .vmem, ⟨3, _⟩ => ⟨S1x4096x32, .f32⟩
  | .local _ .vmem, ⟨4, _⟩ => ⟨S4096x32, .f32⟩
  | .local _ .vmem, ⟨5, _⟩ => ⟨S1x128x4096, .f32⟩
  | .local _ .vmem, ⟨6, _⟩ => ⟨S1x128x4096, .f32⟩
  | .local _ .vmem, ⟨7, _⟩ => ⟨S4096x4096, .bf16⟩
  | .local _ .smem, ⟨0, _⟩ => ⟨S4, .i32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 16], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4096x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  numel1_S1 : S1.numel = 1
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  inb_S4096x4096_S4096x4096_0_0 : ∀ a, (![0, 0] : Fin 2 → Nat) a + S4096x4096.size a ≤ S4096x4096.size a
  h_S4096x4096 : 0 < S4096x4096.numel
  inb_S1x4096x32_S1x4096x32_0_0_0 : ∀ a, (![0, 0, 0] : Fin 3 → Nat) a + S1x4096x32.size a ≤ S1x4096x32.size a
  h_S1x4096x32 : 0 < S1x4096x32.numel
  shapeCasts_S1x4096x32_S4096x32 : S1x4096x32.ShapeCasts S4096x32
  inb_S4096x32_S4096x32_0_0 : ∀ a, (![0, 0] : Fin 2 → Nat) a + S4096x32.size a ≤ S4096x32.size a
  h_S4096x32 : 0 < S4096x32.numel
  shapeCasts_S128x4096_S1x128x4096 : S128x4096.ShapeCasts S1x128x4096
  dot_S128x4096_S4096x4096_S128x4096_1_1_0_0_n_n_wf : DotDims.WF S128x4096 S4096x4096 S128x4096 [1] [1] [0] [0] [] []
  dot_S128x4096_S4096x32_S128x32_1_0_0_1_n_n_wf : DotDims.WF S128x4096 S4096x32 S128x32 [1] [0] [0] [1] [] []
  dot_S128x32_S4096x32_S128x4096_1_1_0_0_n_n_wf : DotDims.WF S128x32 S4096x32 S128x4096 [1] [1] [0] [0] [] []
  hcc0_scratch1 : 7 + S_.numel ≤ 8
  hrank0 : 0 < grid0.rank
  k0_off1_inb : ∀ i : grid0.Coords, ∀ a, (k0_off1 i) a + S1.size a ≤ S4.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x4096.size a ≤ S4x2048x4096.size a
  hwx0_0 : ∀ i : grid0.Coords, EltTy.bits .f32 = 32 ∨ (Rect.block (s := S4x2048x4096) S1x128x4096.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_2 k0_off1_inb numel1_S1 pf i = cc0_transform_2 k0_off1_inb numel1_S1 pf i'
  hstage0_2 : ∀ j, (stage0_2 j).IsWhole
  nbuf0_2 : grid0.bufCount reads0_2 true = 1
  hreads0_2 : ∀ i i' : grid0.Coords, (∀ a, reads0_2 a = true → i a = i' a) → cc0_transform_3 i = cc0_transform_3 i'
  hinb0_2 : ∀ (i : grid0.Coords) a, (cc0_transform_3 i a + 1) * S4096x32.size a ≤ S4096x32.size a
  hwx0_2 : ∀ i : grid0.Coords, EltTy.bits .f32 = 32 ∨ (Rect.block (s := S4096x32) S4096x32.size (cc0_transform_3 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_4 i = cc0_transform_4 i'
  hinb0_3 : ∀ (i : grid0.Coords) a, (cc0_transform_4 i a + 1) * S1x128x4096.size a ≤ S4x2048x4096.size a
  hwx0_3 : ∀ i : grid0.Coords, EltTy.bits .f32 = 32 ∨ (Rect.block (s := S4x2048x4096) S1x128x4096.size (cc0_transform_4 i) (hinb0_3 i)).WholeWords (EltTy.packing .f32)

variable [Facts₀]

abbrev cc0_scratch1 : DmaSems sig S_ := SemArray.consecutive 7 S_ hcc0_scratch1
def dot_S128x4096_S4096x4096_S128x4096_1_1_0_0_n_n : DotDims S128x4096 S4096x4096 S128x4096 where
  lhsContracting := [1]
  rhsContracting := [1]
  lhsNonContracting := [0]
  rhsNonContracting := [0]
  lhsBatch := []
  rhsBatch := []
  wf := dot_S128x4096_S4096x4096_S128x4096_1_1_0_0_n_n_wf
def dot_S128x4096_S4096x32_S128x32_1_0_0_1_n_n : DotDims S128x4096 S4096x32 S128x32 where
  lhsContracting := [1]
  rhsContracting := [0]
  lhsNonContracting := [0]
  rhsNonContracting := [1]
  lhsBatch := []
  rhsBatch := []
  wf := dot_S128x4096_S4096x32_S128x32_1_0_0_1_n_n_wf
def dot_S128x32_S4096x32_S128x4096_1_1_0_0_n_n : DotDims S128x32 S4096x32 S128x4096 where
  lhsContracting := [1]
  rhsContracting := [1]
  lhsNonContracting := [0]
  rhsNonContracting := [0]
  lhsBatch := []
  rhsBatch := []
  wf := dot_S128x32_S4096x32_S128x4096_1_1_0_0_n_n_wf

abbrev spec0_0 : Pipeline.WinSpec sig grid0.rank :=
  Pipeline.WinSpec.ofSpec (Memref.whole main_arg0) S1x128x4096.size reads0_0 false false 2 stage0_0 sem0_0 nbuf0_0 hstage0_0

abbrev spec0_1 : Pipeline.WinSpec sig grid0.rank :=
  Pipeline.WinSpec.ofSpec (Memref.whole main_arg3) S1x4096x32.size reads0_1 false false 2 stage0_1 sem0_1 nbuf0_1 hstage0_1

abbrev spec0_2 : Pipeline.WinSpec sig grid0.rank :=
  Pipeline.WinSpec.ofSpec (Memref.whole main_arg4) S4096x32.size reads0_2 false true 1 stage0_2 sem0_2 nbuf0_2 hstage0_2

abbrev spec0_3 : Pipeline.WinSpec sig grid0.rank :=
  Pipeline.WinSpec.ofSpec (Memref.whole main_v1) S1x128x4096.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_2 k0_off1_inb numel1_S1 pf | 2 => cc0_transform_3 | 3 => cc0_transform_4 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 | 3 => hreads0_3 | ⟨_ + 4, h⟩ => absurd h (Nat.not_lt.2 (Nat.le_add_left _ _))
def ok0 (pf : pre0.Contents (Elt F)) : Prop :=
  (∀ i : grid0.Coords, ∃ h : (∀ a, (cc0_transform_2 k0_off1_inb numel1_S1 pf i a + 1) * S1x4096x32.size a ≤ S5x4096x32.size a), EltTy.bits .f32 = 32 ∨ (Rect.block (s := S5x4096x32) S1x4096x32.size (cc0_transform_2 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok i).elim fun h _ => h a | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok i).elim fun _ h => h | 2 => hwx0_2 | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S4x2048x4096 : Shape := ⟨3, ![4, 2048, 4096]⟩
abbrev S4 : Shape := ⟨1, ![4]⟩
abbrev S4096x4096 : Shape := ⟨2, ![4096, 4096]⟩
abbrev S5x4096x32 : Shape := ⟨3, ![5, 4096, 32]⟩
abbrev S4096x32 : Shape := ⟨2, ![4096, 32]⟩
abbrev S_ : Shape := ⟨0, ![]⟩
abbrev S4x1 : Shape := ⟨2, ![4, 1]⟩
abbrev S4x4096x32 : Shape := ⟨3, ![4, 4096, 32]⟩
abbrev S4x2048x32 : Shape := ⟨3, ![4, 2048, 32]⟩

abbrev nBuf : Space → Nat
  | .hbm => 21
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4, .i32⟩
  | .hbm, ⟨2, _⟩ => ⟨S4096x4096, .f32⟩
  | .hbm, ⟨3, _⟩ => ⟨S5x4096x32, .f32⟩
  | .hbm, ⟨4, _⟩ => ⟨S4096x32, .f32⟩
  | .hbm, ⟨5, _⟩ => ⟨S4x2048x4096, .f32⟩
  | .hbm, ⟨6, _⟩ => ⟨S_, .i32⟩
  | .hbm, ⟨7, _⟩ => ⟨S4, .i32⟩
  | .hbm, ⟨8, _⟩ => ⟨S4, .i1⟩
  | .hbm, ⟨9, _⟩ => ⟨S_, .i32⟩
  | .hbm, ⟨10, _⟩ => ⟨S4, .i32⟩
  | .hbm, ⟨11, _⟩ => ⟨S4, .i32⟩
  | .hbm, ⟨12, _⟩ => ⟨S4, .i32⟩
  | .hbm, ⟨13, _⟩ => ⟨S4x1, .i32⟩
  | .hbm, ⟨14, _⟩ => ⟨S4x4096x32, .f32⟩
  | .hbm, ⟨15, _⟩ => ⟨S4x2048x32, .f32⟩
  | .hbm, ⟨16, _⟩ => ⟨S4x2048x4096, .f32⟩
  | .hbm, ⟨17, _⟩ => ⟨S_, .f32⟩
  | .hbm, ⟨18, _⟩ => ⟨S4x2048x4096, .f32⟩
  | .hbm, ⟨19, _⟩ => ⟨S4x2048x4096, .f32⟩
  | .hbm, ⟨20, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  bcast_S_S4 : S_.BroadcastsInDim S4 (![] : Fin 0 → Fin S4.rank)
  bcast_S4_S4x1_0 : S4.BroadcastsInDim S4x1 (![0] : Fin 1 → Fin S4x1.rank)
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  gather_S5x4096x32_S4x1_S4x4096x32_12_0_n_n_0_1_1409632_wf : GatherDims.WF S5x4096x32 S4x1 S4x4096x32 [1, 2] [0] [] [0] [] 1 ![1, 4096, 32]
  dot_S4x2048x4096_S4x4096x32_S4x2048x32_2_1_1_2_0_0_wf : DotDims.WF S4x2048x4096 S4x4096x32 S4x2048x32 [2] [1] [1] [2] [0] [0]
  dot_S4x2048x32_S4096x32_S4x2048x4096_2_1_01_0_n_n_wf : DotDims.WF S4x2048x32 S4096x32 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def gather_S5x4096x32_S4x1_S4x4096x32_12_0_n_n_0_1_1409632 : GatherDims S5x4096x32 S4x1 S4x4096x32 where
  offsetDims := [1, 2]
  collapsedSliceDims := [0]
  operandBatchingDims := []
  startIndicesBatchingDims := []
  startIndexMap := [0]
  indexVectorDim := 1
  sliceSizes := ![1, 4096, 32]
  wf := gather_S5x4096x32_S4x1_S4x4096x32_12_0_n_n_0_1_1409632_wf
def dot_S4x2048x4096_S4x4096x32_S4x2048x32_2_1_1_2_0_0 : DotDims S4x2048x4096 S4x4096x32 S4x2048x32 where
  lhsContracting := [2]
  rhsContracting := [1]
  lhsNonContracting := [1]
  rhsNonContracting := [2]
  lhsBatch := [0]
  rhsBatch := [0]
  wf := dot_S4x2048x4096_S4x4096x32_S4x2048x32_2_1_1_2_0_0_wf
def dot_S4x2048x32_S4096x32_S4x2048x4096_2_1_01_0_n_n : DotDims S4x2048x32 S4096x32 S4x2048x4096 where
  lhsContracting := [2]
  rhsContracting := [1]
  lhsNonContracting := [0, 1]
  rhsNonContracting := [0]
  lhsBatch := []
  rhsBatch := []
  wf := dot_S4x2048x32_S4096x32_S4x2048x4096_2_1_01_0_n_n_wf

class Facts : Prop extends Facts₀ where

variable [Facts]
-- ==== Proof.LabelRange.lean ====
/-
  The precondition read at the index input. Besides the finiteness of the four float arrays it says, of the
  four labeler indices, `0 ≤ labeler_index[b] < 5` for every batch `b`, signed. A 32-bit word in `[0, 5)` read
  signed is below `5` read unsigned, and the unsigned reading is the one a block index is computed from; so under
  the precondition every labeler index, as a natural number, names one of the five slices of `lora_A`.
-/
import proofs.«161692_j38225208934786_1_alg».proof.Pre_finite_inputs
import Idealize.ShloMosaic.Lib.ReduceAll

noncomputable section

namespace Cert.LabelRange

open Idealize.ShloMosaic Cert.Pre_finite_inputs

variable {F : FTy → Type} [FloatOps F] [Cert.Pre_finite_inputs.Facts]

/-- The rank-0 shape has one index. -/
instance : Subsingleton S_.Idx := ⟨fun a b => funext fun d => d.elim0⟩

/-- A word `w` with `0 ≤ w < 5` as a signed number is below `5` as an unsigned one: its top bit is clear, so the
    two readings agree. -/
theorem toNat_lt_five (w : BitVec 32) (h0 : (0#32 : BitVec 32).toInt ≤ w.toInt)
    (h5 : w.toInt < (5#32 : BitVec 32).toInt) : w.toNat < 5 := by
  rw [show (0#32 : BitVec 32).toInt = 0 from by decide] at h0
  rw [show (5#32 : BitVec 32).toInt = 5 from by decide] at h5
  have hw := w.isLt
  rw [BitVec.toInt_eq_toNat_cond] at h0 h5
  split at h0 <;> omega

/-- Under the precondition every labeler index is below `5` unsigned. The precondition is a conjunction whose
    last conjunct is "for all `b`: `labeler_index[b] ≥ 0` and `labeler_index[b] < 5`"; a conjunction of one-bit
    words that is `1` has every conjunct `1`, and an all-reduction by `and` that is `1` met `1` at every index. -/
theorem labels_lt_five (x0 : FVec F S4x2048x4096 .f32) (x1 : IVec S4 32) (x2 : FVec F S4096x4096 .f32)
    (x3 : FVec F S5x4096x32 .f32) (x4 : FVec F S4096x32 .f32)
    (h : Cert.Pre_finite_inputs.fn (F := F) x0 x1 x2 x3 x4 = fun _ => 1#1) (k : S4.Idx) :
    (x1 k).toNat < 5 := by
  have e := congrFun h (fun d => d.elim0)
  dsimp only [Cert.Pre_finite_inputs.fn, Cert.Pre_finite_inputs.fn_part1] at e
  obtain ⟨-, e2⟩ := IntOp.andi_eq_one.1 e
  have e3 := Host.reduce_andi_all _ _ _ _ _ e2 k
  obtain ⟨h0, h5⟩ := IntOp.andi_eq_one.1 e3
  exact toNat_lt_five (x1 k) (IntOp.cmpi_sge.1 h0) (IntOp.cmpi_slt.1 h5)

end Cert.LabelRange

end
-- ==== Proof.TablesBits.lean ====
/-
  The word-level kernel's side condition on its prefetched table (the same statement as for its idealization: the
  index maps are integer arithmetic and do not depend on how floats are read). The block of `lora_A` staged at grid point
  `(b, s)` is slice `labeler_index[b]` of the `[5, 4096, 32]` array, whole in its other two axes: block index
  `(labeler_index[b], 0, 0)` with block extents `(1, 4096, 32)`. It lies inside the array exactly when
  `labeler_index[b] + 1 ≤ 5` (unsigned); the other two axes hold the whole extent. Elements are 32 bits wide,
  so every transfer ends on a word.
-/
import proofs.«161692_j38225208934786_1_alg».proof.Proof.Gen.Kernel.Frame

set_option maxRecDepth 16384

noncomputable section

namespace Cert.Kernel.Tables

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- The table the region reads is the index argument as launched: no host operation before the region
    writes it. -/
theorem tbl_eq (x : S4.Idx) : tbl m 0 x = m (((0 : Dev nD) : Thread nD τ).loc main_arg1) x :=
  congrFun (V_main_arg1 m 0) x

/-- If every word of the table is below `5`, every table-indexed block of `lora_A` lies inside the array. -/
theorem ok_of_labels (hl : ∀ x, (tbl m 0 x).toNat < 5) : Ok m := by
  intro i
  have h5 : ∀ w : BitVec 32, w.toNat < 5 → (w.toNat + 1) * 1 ≤ 5 := fun w h => by omega
  refine ⟨fun a => ?_, Or.inl rfl⟩
  match a with
  | ⟨0, _⟩ => exact h5 _ (hl _)
  | ⟨1, _⟩ => show (0 + 1) * 4096 ≤ 4096; omega
  | ⟨2, _⟩ => show (0 + 1) * 32 ≤ 32; omega

/-- The same from the index argument as launched: if every labeler index is below `5`, the side condition holds. -/
theorem ok_of_arg (hl : ∀ x : S4.Idx, (m (((0 : Dev nD).tc : Thread nD τ).loc main_arg1) x).toNat < 5) : Ok m :=
  ok_of_labels m fun x => lt_of_eq_of_lt (congrArg BitVec.toNat (tbl_eq m x)) (hl x)

end Cert.Kernel.Tables

end
-- ==== Proof.TablesIdeal.lean ====
/-
  The idealized kernel's side condition on its prefetched table. The block of `lora_A` staged at grid point
  `(b, s)` is slice `labeler_index[b]` of the `[5, 4096, 32]` array, whole in its other two axes: block index
  `(labeler_index[b], 0, 0)` with block extents `(1, 4096, 32)`. It lies inside the array exactly when
  `labeler_index[b] + 1 ≤ 5` (unsigned); the other two axes hold the whole extent. Elements are 32 bits wide,
  so every transfer ends on a word.
-/
import proofs.«161692_j38225208934786_1_alg».proof.Proof.Gen.KernelIdeal.Frame

set_option maxRecDepth 16384

noncomputable section

namespace Cert.KernelIdeal.Tables

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The table the region reads is the index argument as launched: no host operation before the region
    writes it. -/
theorem tbl_eq (x : S4.Idx) : tbl m 0 x = m (((0 : Dev nD) : Thread nD τ).loc main_arg1) x :=
  congrFun (V_main_arg1 m 0) x

/-- If every word of the table is below `5`, every table-indexed block of `lora_A` lies inside the array. -/
theorem ok_of_labels (hl : ∀ x, (tbl m 0 x).toNat < 5) : Ok m := by
  intro i
  have h5 : ∀ w : BitVec 32, w.toNat < 5 → (w.toNat + 1) * 1 ≤ 5 := fun w h => by omega
  refine ⟨fun a => ?_, Or.inl rfl⟩
  match a with
  | ⟨0, _⟩ => exact h5 _ (hl _)
  | ⟨1, _⟩ => show (0 + 1) * 4096 ≤ 4096; omega
  | ⟨2, _⟩ => show (0 + 1) * 32 ≤ 32; omega

/-- The same from the index argument as launched: if every labeler index is below `5`, the side condition holds. -/
theorem ok_of_arg (hl : ∀ x : S4.Idx, (m (((0 : Dev nD).tc : Thread nD τ).loc main_arg1) x).toNat < 5) : Ok m :=
  ok_of_labels m fun x => lt_of_eq_of_lt (congrArg BitVec.toNat (tbl_eq m x)) (hl x)

end Cert.KernelIdeal.Tables

end
-- ==== Proof.LibWholeRect.lean ====
/-
  Writes and loads through a buffer's WHOLE rectangle, for any program.

  A body that fills a buffer in one piece — a copy of a whole array into a scratch buffer, one store covering a whole
  tile — leaves a piece list with a single piece over the whole rectangle of the buffer's shape. Read back, that list
  is the piece's payload (`canon_whole`); and a later load of the whole buffer, through the unit rectangle at zero
  offsets with the shape's own extents (however the zeros are spelt), reads the payload (`readCov_whole`). Both rest on
  the whole rectangle BEING that zero-offset unit rectangle.
-/
import Idealize.ShloMosaic.Lib.Pipeline.Value

noncomputable section

namespace Cert.LibWholeRect

open Idealize.ShloMosaic

/-- One write through the whole rectangle leaves its payload. -/
theorem canon_whole {Val : EltTy → Type} [∀ e, Nonempty (Val e)] {S : Shape} {e : EltTy} (w : S.Idx → Val e) :
    View.canon [(⟨Rect.whole S, w⟩ : View.Piece Val S e)] = w :=
  View.canon_unit_zero (off := fun _ => 0) rfl (fun a => (Nat.zero_add _).le) w

/-- A load through the zero-offset rectangle of the shape's own extents, of what one write through the whole
    rectangle left, reads that write's payload. -/
theorem readCov_whole {Val : EltTy → Type} [∀ e, Nonempty (Val e)] {S : Shape} {e : EltTy} {sg : RefSig} {κ : Kind} {sp : Space}
    (v : View sg κ sp S e) {off : Fin S.rank → Nat} (h : off = fun _ => 0) (inb : ∀ a, off a + S.size a ≤ S.size a)
    (w : S.Idx → Val e) :
    v.readCov [(⟨Rect.whole S, w⟩ : View.Piece Val S e)] (Rect.unit off S.size inb).toLoadRect = w := by
  subst h
  exact View.readCov_unit_zero v rfl inb w

end Cert.LibWholeRect

end
-- ==== Proof.PiecesIdeal.lean ====
/-
  What one run of the idealized kernel's body leaves behind, as values.

  The body has two control cases. At the first sequence tile of a batch (grid coordinate 1 equal to 0) it first
  copies the whole bf16 weight from HBM into its scratch buffer and waits for the copy; at every other tile it
  leaves the scratch alone. In both cases it then loads the `x` tile, the scratch, the `lora_A` slice and
  `lora_B_w`, and stores ONE value covering the whole output tile: the payload of those four loads.

  So: in the first case the scratch ends holding the HBM array and the output tile is the payload at that array;
  in the other case the scratch is unchanged and the output tile is the payload at whatever the scratch held.
-/
import proofs.«161692_j38225208934786_1_alg».proof.Proof.Gen.KernelIdeal.Frame
import proofs.«161692_j38225208934786_1_alg».proof.Proof.LibWholeRect
import Idealize.ShloMosaic.Lib.Pipeline.Value
import Idealize.ShloMosaic.Lib.Tactic

set_option maxRecDepth 16384

noncomputable section

namespace Cert.KernelIdeal.Pieces

open Cert.KernelIdeal Cert.KernelIdeal.Gen Cert.LibWholeRect
open Idealize.ShloMosaic Idealize.ShloMosaic.TcCoe Idealize.ShloMosaic.Tactic Idealize.SL.Sem

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A tile that is not the first of its batch: the output tile is the payload of the `x` tile, the scratch as the
    tile before left it, the `lora_A` slice and `lora_B_w`. -/
theorem out_B (c : Dev nD) (i : grid0.Coords) (arg3 : Memref sig .tc .vmem S1x128x4096 .f32) (harg3 : arg3.IsWhole) (arg5 : Memref sig .tc .vmem S1x4096x32 .f32) (harg5 : arg5.IsWhole) (arg6 : Memref sig .tc .vmem S4096x32 .f32) (harg6 : arg6.IsWhole) (arg7 : Memref sig .tc .vmem S1x128x4096 .f32) (harg7 : arg7.IsWhole) (arg8 : Memref sig .tc .vmem S4096x4096 .bf16) (harg8 : arg8.IsWhole) (hc0 : ¬cond0_0 i)
    (x0 : Vec F S1x128x4096 .f32) (x1 : Vec F S1x4096x32 .f32) (x2 : Vec F S4096x32 .f32) (xt0 : TbBuf0 (F := F) c tbM0_0) (xs0 : Vec F S4096x4096 .bf16) (fh0 : HbBuf0 (F := F) c hbM0_0) :
    out0_B_3 c i arg3 harg3 arg5 harg5 arg6 harg6 arg7 harg7 arg8 harg8 hc0 x0 x1 x2 xt0 xs0 fh0 = k0_pay1 x0 xs0 x1 x2 := by
  unfold out0_B_3
  rw [View.read_writes_eq_canon _ _ _ (cover0_B_3 c i arg3 harg3 arg5 harg5 arg6 harg6 arg7 harg7 arg8 harg8 hc0 x0 x1 x2 xt0 xs0 fh0)]
  unfold kernelRun0_B
  dsimp only
  rw [View.canon_unit_zero hz3]
  simp only [View.readAt_eq_ld, harg3.read_unread, harg5.read_unread, harg6.read_unread, harg8.read_unread,
    View.ld_unit_zero (S := S1x128x4096) hz3, View.ld_unit_zero (S := S1x4096x32) hz3, View.ld_unit_zero (S := S4096x32) hz2,
    View.ld_unit_zero (S := S4096x4096) hz2]

/-- The first tile of a batch: the scratch is loaded after the copy has landed, so the output tile is the payload at
    the HBM array itself. -/
theorem out_A (c : Dev nD) (i : grid0.Coords) (arg3 : Memref sig .tc .vmem S1x128x4096 .f32) (harg3 : arg3.IsWhole) (arg5 : Memref sig .tc .vmem S1x4096x32 .f32) (harg5 : arg5.IsWhole) (arg6 : Memref sig .tc .vmem S4096x32 .f32) (harg6 : arg6.IsWhole) (arg7 : Memref sig .tc .vmem S1x128x4096 .f32) (harg7 : arg7.IsWhole) (arg8 : Memref sig .tc .vmem S4096x4096 .bf16) (harg8 : arg8.IsWhole) (hc0 : cond0_0 i)
    (x0 : Vec F S1x128x4096 .f32) (x1 : Vec F S1x4096x32 .f32) (x2 : Vec F S4096x32 .f32) (xt0 : TbBuf0 (F := F) c tbM0_0) (fh0 : HbBuf0 (F := F) c hbM0_0) :
    out0_A_3 c i arg3 harg3 arg5 harg5 arg6 harg6 arg7 harg7 arg8 harg8 hc0 x0 x1 x2 xt0 fh0 = k0_pay1 x0 fh0 x1 x2 := by
  unfold out0_A_3
  rw [View.read_writes_eq_canon _ _ _ (cover0_A_3 c i arg3 harg3 arg5 harg5 arg6 harg6 arg7 harg7 arg8 harg8 hc0 x0 x1 x2 xt0 fh0)]
  unfold kernelRun0_A
  dsimp only
  sl_unfold_words
  rw [View.canon_unit_zero hz3, readCov_whole _ hz2]
  simp only [View.readAt_eq_ld, harg3.read_unread, harg5.read_unread, harg6.read_unread,
    View.ld_unit_zero (S := S1x128x4096) hz3, View.ld_unit_zero (S := S1x4096x32) hz3, View.ld_unit_zero (S := S4096x32) hz2]
  rfl

/-- The first tile of a batch leaves the scratch holding the HBM array: the copy writes the whole buffer. -/
theorem sout_A (c : Dev nD) (i : grid0.Coords) (arg3 : Memref sig .tc .vmem S1x128x4096 .f32) (harg3 : arg3.IsWhole) (arg5 : Memref sig .tc .vmem S1x4096x32 .f32) (harg5 : arg5.IsWhole) (arg6 : Memref sig .tc .vmem S4096x32 .f32) (harg6 : arg6.IsWhole) (arg7 : Memref sig .tc .vmem S1x128x4096 .f32) (harg7 : arg7.IsWhole) (arg8 : Memref sig .tc .vmem S4096x4096 .bf16) (harg8 : arg8.IsWhole) (hc0 : cond0_0 i)
    (x0 : Vec F S1x128x4096 .f32) (x1 : Vec F S1x4096x32 .f32) (x2 : Vec F S4096x32 .f32) (xt0 : TbBuf0 (F := F) c tbM0_0) (fh0 : HbBuf0 (F := F) c hbM0_0) :
    sout0_A_0 c i arg3 harg3 arg5 harg5 arg6 harg6 arg7 harg7 arg8 harg8 hc0 x0 x1 x2 xt0 fh0 = fh0 := by
  unfold sout0_A_0
  rw [View.read_writes_eq_canon _ _ _ (scover0_A_0 c i arg3 harg3 arg5 harg5 arg6 harg6 arg7 harg7 arg8 harg8 hc0 x0 x1 x2 xt0 fh0)]
  unfold kernelRun0_A
  dsimp only
  sl_unfold_words
  rw [canon_whole]
  rfl

end Cert.KernelIdeal.Pieces

end
-- ==== Proof.CarriedIdeal.lean ====
/-
  The idealized kernel over its grid. The 64 grid points run in order, point `t` being batch `t / 16`, sequence
  tile `t % 16`. The scratch buffer is carried from point to point; the first tile of each batch (`t % 16 = 0`)
  overwrites it whole with the bf16 weight as the region found it in HBM, and no other tile writes it. Hence after
  EVERY point the scratch holds that weight (induction on the point), and so at every point the output tile is the
  body's payload of the point's `x` tile, that weight, the point's `lora_A` slice and `lora_B_w`.
-/
import proofs.«161692_j38225208934786_1_alg».proof.Proof.PiecesIdeal

set_option maxRecDepth 16384

noncomputable section

namespace Cert.KernelIdeal.Carried

open Cert.KernelIdeal Cert.KernelIdeal.Gen Cert.KernelIdeal.Pieces
open Idealize.ShloMosaic Idealize.ShloMosaic.TcCoe Idealize.SL.Sem

variable {F : FTy → Type} [FloatOps F]
variable (m : (ℓ : Loc nD τ sig) → Buf (Elt F) ℓ)

/-- After every point the carried scratch holds the bf16 weight the region found in HBM. -/
theorem scratch_eq (hO : Ok m) (c : Dev nD) : ∀ (n : ℕ) (h : n < (cfgM m hO).N), (outsAt0 m hO c n h).2 = V m c main_v0
  | 0, h => by
    rw [outsAt0_A m hO c ⟨0, h⟩ rfl]
    dsimp only
    exact sout_A c (grid0.coords ⟨0, h⟩) (ms0_0 m hO ⟨0, h⟩) (hs0_0 m hO ⟨0, h⟩) (ms0_1 m hO ⟨0, h⟩) (hs0_1 m hO ⟨0, h⟩)
      (ms0_2 m hO ⟨0, h⟩) (hs0_2 m hO ⟨0, h⟩) (ms0_3 m hO ⟨0, h⟩) (hs0_3 m hO ⟨0, h⟩) scM0_0 (Memref.isWhole_whole _)
      ((hcond0_0 ⟨0, h⟩).mpr rfl) (iblk m hO c 0 ⟨0, h⟩) (iblk m hO c 1 ⟨0, h⟩) (iblk m hO c 2 ⟨0, h⟩) (tbl m 0) (V m c main_v0)
  | n + 1, h => by
    by_cases h0 : (n + 1) % 16 = 0
    · rw [outsAt0_A m hO c ⟨n + 1, h⟩ h0]
      dsimp only
      exact sout_A c (grid0.coords ⟨n + 1, h⟩) (ms0_0 m hO ⟨n + 1, h⟩) (hs0_0 m hO ⟨n + 1, h⟩) (ms0_1 m hO ⟨n + 1, h⟩) (hs0_1 m hO ⟨n + 1, h⟩)
        (ms0_2 m hO ⟨n + 1, h⟩) (hs0_2 m hO ⟨n + 1, h⟩) (ms0_3 m hO ⟨n + 1, h⟩) (hs0_3 m hO ⟨n + 1, h⟩) scM0_0 (Memref.isWhole_whole _)
        ((hcond0_0 ⟨n + 1, h⟩).mpr h0) (iblk m hO c 0 ⟨n + 1, h⟩) (iblk m hO c 1 ⟨n + 1, h⟩) (iblk m hO c 2 ⟨n + 1, h⟩) (tbl m 0) (V m c main_v0)
    · rw [outsAt0_B m hO c ⟨n + 1, h⟩ h0]
      dsimp only
      unfold sout0_B_0
      exact scratch_eq hO c n (Nat.lt_of_succ_lt h)

/-- At every point the output tile is the payload of the point's three input blocks and the bf16 weight. -/
theorem out_eq (hO : Ok m) (c : Dev nD) (t : Fin (cfgM m hO).N) :
    (outsAt0 m hO c t.val t.isLt).1 = k0_pay1 (iblk m hO c 0 t) (V m c main_v0) (iblk m hO c 1 t) (iblk m hO c 2 t) := by
  by_cases h0 : t.val % 16 = 0
  · rw [outsAt0_A m hO c t h0]
    dsimp only
    exact out_A c (grid0.coords t) (ms0_0 m hO t) (hs0_0 m hO t) (ms0_1 m hO t) (hs0_1 m hO t)
      (ms0_2 m hO t) (hs0_2 m hO t) (ms0_3 m hO t) (hs0_3 m hO t) scM0_0 (Memref.isWhole_whole _)
      ((hcond0_0 t).mpr h0) (iblk m hO c 0 t) (iblk m hO c 1 t) (iblk m hO c 2 t) (tbl m 0) (V m c main_v0)
  · rw [outsAt0_B m hO c t h0]
    dsimp only
    refine (out_B c (grid0.coords t) (ms0_0 m hO t) (hs0_0 m hO t) (ms0_1 m hO t) (hs0_1 m hO t)
      (ms0_2 m hO t) (hs0_2 m hO t) (ms0_3 m hO t) (hs0_3 m hO t) scM0_0 (Memref.isWhole_whole _)
      (fun h => h0 ((hcond0_0 t).mp h)) (iblk m hO c 0 t) (iblk m hO c 1 t) (iblk m hO c 2 t) (tbl m 0)
      (outsAt0 m hO c (t.val - 1) (Nat.lt_of_le_of_lt (Nat.sub_le _ _) t.isLt)).2 (V m c main_v0)).trans ?_
    rw [scratch_eq m hO c (t.val - 1) (Nat.lt_of_le_of_lt (Nat.sub_le _ _) t.isLt)]

end Cert.KernelIdeal.Carried

end
-- ==== Proof.PayloadIdeal.lean ====
/-
  The idealized kernel's body as arithmetic on extended reals, one entry at a time.

  The body takes a `[1, 128, 4096]` tile of `x`, the `[4096, 4096]` scratch (the weight, one row per output
  feature), a `[1, 4096, 32]` slice of `lora_A` and the `[4096, 32]` factor `lora_B_w`, and produces a
  `[1, 128, 4096]` tile. Its three matrix products all accumulate into a zero array, so each entry is a plain sum
  over the one contracted axis:

      base[p, q]  = Σₖ x[p, k] · w[q, k]          (k over 4096; both operands contracted on their last axis)
      low[p, r]   = Σₖ x[p, k] · a[k, r]          (k over 4096)
      delta[p, q] = Σᵣ low[p, r] · bw[q, r]       (r over 32)
      out[p, q]   = base[p, q] + delta[p, q] · ½

  A sum over the contraction index set of a product's dimension numbers is re-indexed to a sum over `Fin K` by the
  bijection that reads off the one contraction coordinate; the operand indices are then read coordinate by coordinate.
-/
import proofs.«161692_j38225208934786_1_alg».proof.Proof.Gen.KernelIdeal.Skeleton
import Idealize.ShloMosaic.Lib.ValueIdx
import Idealize.ShloMosaic.Lib.ValueLayout
import Idealize.ShloMosaic.PureOps.Ideal.Laws

noncomputable section

open scoped BigOperators

namespace Cert.KernelIdeal.PayloadAt

open Cert.KernelIdeal Cert.KernelIdeal.Gen
open Idealize.ShloMosaic Idealize.ShloMosaic.ValueIdx

theorem mm_base_l0 (j : S128x4096.Idx) (q : (DotDims.contr dot_S128x4096_S4096x4096_S128x4096_1_1_0_0_n_n).Idx) :
    (DotDims.lhsIdx dot_S128x4096_S4096x4096_S128x4096_1_1_0_0_n_n j q 0).val = (j 0).val := by
  unfold DotDims.lhsIdx
  rw [dif_neg (show ¬(0 : Fin S128x4096.rank) ∈ DotDims.lhsBatch dot_S128x4096_S4096x4096_S128x4096_1_1_0_0_n_n by decide),
    dif_pos (show (0 : Fin S128x4096.rank) ∈ DotDims.lhsNonContracting dot_S128x4096_S4096x4096_S128x4096_1_1_0_0_n_n by decide)]
  rfl
theorem mm_base_l1 (j : S128x4096.Idx) (q : (DotDims.contr dot_S128x4096_S4096x4096_S128x4096_1_1_0_0_n_n).Idx) :
    (DotDims.lhsIdx dot_S128x4096_S4096x4096_S128x4096_1_1_0_0_n_n j q 1).val = (q ⟨0, by decide⟩).val :=
  DotDims.lhsIdx_val_of_single dot_S128x4096_S4096x4096_S128x4096_1_1_0_0_n_n rfl j q
theorem mm_base_rn (j : S128x4096.Idx) (q : (DotDims.contr dot_S128x4096_S4096x4096_S128x4096_1_1_0_0_n_n).Idx) :
    (DotDims.rhsIdx dot_S128x4096_S4096x4096_S128x4096_1_1_0_0_n_n j q 0).val = (j 1).val := by
  unfold DotDims.rhsIdx
  rw [dif_neg (show ¬(0 : Fin S4096x4096.rank) ∈ DotDims.rhsBatch dot_S128x4096_S4096x4096_S128x4096_1_1_0_0_n_n by decide),
    dif_pos (show (0 : Fin S4096x4096.rank) ∈ DotDims.rhsNonContracting dot_S128x4096_S4096x4096_S128x4096_1_1_0_0_n_n by decide)]
  rfl
theorem mm_base_rc (j : S128x4096.Idx) (q : (DotDims.contr dot_S128x4096_S4096x4096_S128x4096_1_1_0_0_n_n).Idx) :
    (DotDims.rhsIdx dot_S128x4096_S4096x4096_S128x4096_1_1_0_0_n_n j q 1).val = (q ⟨0, by decide⟩).val :=
  DotDims.rhsIdx_val_of_single dot_S128x4096_S4096x4096_S128x4096_1_1_0_0_n_n rfl j q

/-- The base product: a row tile of `x` against the rows of `W`, both contracted along their last axis — entry `(p, q)` is `Σₖ l[p,k] · w[q,k]`. -/
theorem mm_base (l : FVec Ideal S128x4096 .bf16) (w : FVec Ideal S4096x4096 .bf16) (p : Fin 128) (q : Fin 4096) :
    matmul dot_S128x4096_S4096x4096_S128x4096_1_1_0_0_n_n none l w (constant (F := Ideal) S128x4096 .f32 0x00000000#32) (ix2 p q)
      = ∑ k : Fin 4096, l (ix2 p k) * w (ix2 q k) := by
  refine (Ideal.matmul_constant_zero_apply dot_S128x4096_S4096x4096_S128x4096_1_1_0_0_n_n none l w (ix2 p q)).trans ?_
  rw [← Equiv.sum_comp (contrEquiv1 dot_S128x4096_S4096x4096_S128x4096_1_1_0_0_n_n 4096 rfl rfl).symm]
  refine Finset.sum_congr rfl fun k _ => ?_
  have hk := contrEquiv1_symm_val dot_S128x4096_S4096x4096_S128x4096_1_1_0_0_n_n 4096 rfl rfl k
  have el : DotDims.lhsIdx dot_S128x4096_S4096x4096_S128x4096_1_1_0_0_n_n (ix2 p q) ((contrEquiv1 dot_S128x4096_S4096x4096_S128x4096_1_1_0_0_n_n 4096 rfl rfl).symm k) = ix2 p k :=
    funext fun a => Fin.ext (by
      match a with
      | ⟨0, _⟩ => exact mm_base_l0 _ _
      | ⟨1, _⟩ => exact (mm_base_l1 _ _).trans hk)
  have er : DotDims.rhsIdx dot_S128x4096_S4096x4096_S128x4096_1_1_0_0_n_n (ix2 p q) ((contrEquiv1 dot_S128x4096_S4096x4096_S128x4096_1_1_0_0_n_n 4096 rfl rfl).symm k) = ix2 q k :=
    funext fun a => Fin.ext (by
      match a with
      | ⟨0, _⟩ => exact mm_base_rn _ _
      | ⟨1, _⟩ => exact (mm_base_rc _ _).trans hk)
  rw [el, er]

theorem mm_low_l0 (j : S128x32.Idx) (q : (DotDims.contr dot_S128x4096_S4096x32_S128x32_1_0_0_1_n_n).Idx) :
    (DotDims.lhsIdx dot_S128x4096_S4096x32_S128x32_1_0_0_1_n_n j q 0).val = (j 0).val := by
  unfold DotDims.lhsIdx
  rw [dif_neg (show ¬(0 : Fin S128x4096.rank) ∈ DotDims.lhsBatch dot_S128x4096_S4096x32_S128x32_1_0_0_1_n_n by decide),
    dif_pos (show (0 : Fin S128x4096.rank) ∈ DotDims.lhsNonContracting dot_S128x4096_S4096x32_S128x32_1_0_0_1_n_n by decide)]
  rfl
theorem mm_low_l1 (j : S128x32.Idx) (q : (DotDims.contr dot_S128x4096_S4096x32_S128x32_1_0_0_1_n_n).Idx) :
    (DotDims.lhsIdx dot_S128x4096_S4096x32_S128x32_1_0_0_1_n_n j q 1).val = (q ⟨0, by decide⟩).val :=
  DotDims.lhsIdx_val_of_single dot_S128x4096_S4096x32_S128x32_1_0_0_1_n_n rfl j q
theorem mm_low_rn (j : S128x32.Idx) (q : (DotDims.contr dot_S128x4096_S4096x32_S128x32_1_0_0_1_n_n).Idx) :
    (DotDims.rhsIdx dot_S128x4096_S4096x32_S128x32_1_0_0_1_n_n j q 1).val = (j 1).val := by
  unfold DotDims.rhsIdx
  rw [dif_neg (show ¬(1 : Fin S4096x32.rank) ∈ DotDims.rhsBatch dot_S128x4096_S4096x32_S128x32_1_0_0_1_n_n by decide),
    dif_pos (show (1 : Fin S4096x32.rank) ∈ DotDims.rhsNonContracting dot_S128x4096_S4096x32_S128x32_1_0_0_1_n_n by decide)]
  rfl
theorem mm_low_rc (j : S128x32.Idx) (q : (DotDims.contr dot_S128x4096_S4096x32_S128x32_1_0_0_1_n_n).Idx) :
    (DotDims.rhsIdx dot_S128x4096_S4096x32_S128x32_1_0_0_1_n_n j q 0).val = (q ⟨0, by decide⟩).val :=
  DotDims.rhsIdx_val_of_single dot_S128x4096_S4096x32_S128x32_1_0_0_1_n_n rfl j q

/-- The rank-32 intermediate: a row tile of `x` against a slice of `lora_A`, the last axis of the first contracted with the first axis of the second — entry `(p, r)` is `Σₖ l[p,k] · a[k,r]`. -/
theorem mm_low (l : FVec Ideal S128x4096 .f32) (w : FVec Ideal S4096x32 .f32) (p : Fin 128) (q : Fin 32) :
    matmul dot_S128x4096_S4096x32_S128x32_1_0_0_1_n_n none l w (constant (F := Ideal) S128x32 .f32 0x00000000#32) (ix2 p q)
      = ∑ k : Fin 4096, l (ix2 p k) * w (ix2 k q) := by
  refine (Ideal.matmul_constant_zero_apply dot_S128x4096_S4096x32_S128x32_1_0_0_1_n_n none l w (ix2 p q)).trans ?_
  rw [← Equiv.sum_comp (contrEquiv1 dot_S128x4096_S4096x32_S128x32_1_0_0_1_n_n 4096 rfl rfl).symm]
  refine Finset.sum_congr rfl fun k _ => ?_
  have hk := contrEquiv1_symm_val dot_S128x4096_S4096x32_S128x32_1_0_0_1_n_n 4096 rfl rfl k
  have el : DotDims.lhsIdx dot_S128x4096_S4096x32_S128x32_1_0_0_1_n_n (ix2 p q) ((contrEquiv1 dot_S128x4096_S4096x32_S128x32_1_0_0_1_n_n 4096 rfl rfl).symm k) = ix2 p k :=
    funext fun a => Fin.ext (by
      match a with
      | ⟨0, _⟩ => exact mm_low_l0 _ _
      | ⟨1, _⟩ => exact (mm_low_l1 _ _).trans hk)
  have er : DotDims.rhsIdx dot_S128x4096_S4096x32_S128x32_1_0_0_1_n_n (ix2 p q) ((contrEquiv1 dot_S128x4096_S4096x32_S128x32_1_0_0_1_n_n 4096 rfl rfl).symm k) = ix2 k q :=
    funext fun a => Fin.ext (by
      match a with
      | ⟨1, _⟩ => exact mm_low_rn _ _
      | ⟨0, _⟩ => exact (mm_low_rc _ _).trans hk)
  rw [el, er]

theorem mm_delta_l0 (j : S128x4096.Idx) (q : (DotDims.contr dot_S128x32_S4096x32_S128x4096_1_1_0_0_n_n).Idx) :
    (DotDims.lhsIdx dot_S128x32_S4096x32_S128x4096_1_1_0_0_n_n j q 0).val = (j 0).val := by
  unfold DotDims.lhsIdx
  rw [dif_neg (show ¬(0 : Fin S128x32.rank) ∈ DotDims.lhsBatch dot_S128x32_S4096x32_S128x4096_1_1_0_0_n_n by decide),
    dif_pos (show (0 : Fin S128x32.rank) ∈ DotDims.lhsNonContracting dot_S128x32_S4096x32_S128x4096_1_1_0_0_n_n by decide)]
  rfl
theorem mm_delta_l1 (j : S128x4096.Idx) (q : (DotDims.contr dot_S128x32_S4096x32_S128x4096_1_1_0_0_n_n).Idx) :
    (DotDims.lhsIdx dot_S128x32_S4096x32_S128x4096_1_1_0_0_n_n j q 1).val = (q ⟨0, by decide⟩).val :=
  DotDims.lhsIdx_val_of_single dot_S128x32_S4096x32_S128x4096_1_1_0_0_n_n rfl j q
theorem mm_delta_rn (j : S128x4096.Idx) (q : (DotDims.contr dot_S128x32_S4096x32_S128x4096_1_1_0_0_n_n).Idx) :
    (DotDims.rhsIdx dot_S128x32_S4096x32_S128x4096_1_1_0_0_n_n j q 0).val = (j 1).val := by
  unfold DotDims.rhsIdx
  rw [dif_neg (show ¬(0 : Fin S4096x32.rank) ∈ DotDims.rhsBatch dot_S128x32_S4096x32_S128x4096_1_1_0_0_n_n by decide),
    dif_pos (show (0 : Fin S4096x32.rank) ∈ DotDims.rhsNonContracting dot_S128x32_S4096x32_S128x4096_1_1_0_0_n_n by decide)]
  rfl
theorem mm_delta_rc (j : S128x4096.Idx) (q : (DotDims.contr dot_S128x32_S4096x32_S128x4096_1_1_0_0_n_n).Idx) :
    (DotDims.rhsIdx dot_S128x32_S4096x32_S128x4096_1_1_0_0_n_n j q 1).val = (q ⟨0, by decide⟩).val :=
  DotDims.rhsIdx_val_of_single dot_S128x32_S4096x32_S128x4096_1_1_0_0_n_n rfl j q

/-- The update: the intermediate against the rows of `lora_B_w`, both contracted along their last axis — entry `(p, q)` is `Σᵣ t[p,r] · bw[q,r]`. -/
theorem mm_delta (l : FVec Ideal S128x32 .f32) (w : FVec Ideal S4096x32 .f32) (p : Fin 128) (q : Fin 4096) :
    matmul dot_S128x32_S4096x32_S128x4096_1_1_0_0_n_n none l w (constant (F := Ideal) S128x4096 .f32 0x00000000#32) (ix2 p q)
      = ∑ k : Fin 32, l (ix2 p k) * w (ix2 q k) := by
  refine (Ideal.matmul_constant_zero_apply dot_S128x32_S4096x32_S128x4096_1_1_0_0_n_n none l w (ix2 p q)).trans ?_
  rw [← Equiv.sum_comp (contrEquiv1 dot_S128x32_S4096x32_S128x4096_1_1_0_0_n_n 32 rfl rfl).symm]
  refine Finset.sum_congr rfl fun k _ => ?_
  have hk := contrEquiv1_symm_val dot_S128x32_S4096x32_S128x4096_1_1_0_0_n_n 32 rfl rfl k
  have el : DotDims.lhsIdx dot_S128x32_S4096x32_S128x4096_1_1_0_0_n_n (ix2 p q) ((contrEquiv1 dot_S128x32_S4096x32_S128x4096_1_1_0_0_n_n 32 rfl rfl).symm k) = ix2 p k :=
    funext fun a => Fin.ext (by
      match a with
      | ⟨0, _⟩ => exact mm_delta_l0 _ _
      | ⟨1, _⟩ => exact (mm_delta_l1 _ _).trans hk)
  have er : DotDims.rhsIdx dot_S128x32_S4096x32_S128x4096_1_1_0_0_n_n (ix2 p q) ((contrEquiv1 dot_S128x32_S4096x32_S128x4096_1_1_0_0_n_n 32 rfl rfl).symm k) = ix2 q k :=
    funext fun a => Fin.ext (by
      match a with
      | ⟨0, _⟩ => exact mm_delta_rn _ _
      | ⟨1, _⟩ => exact (mm_delta_rc _ _).trans hk)
  rw [el, er]

/-- The body's payload at entry `(p, q)` of the output tile: the base term over the scratch's rows plus half the
    update through the rank-32 intermediate. The change to bf16 of the `x` tile before the base product is the identity
    on extended reals; the leading unit axis of the `x` tile, of the `lora_A` slice and of the output tile is dropped and
    put back by casts that keep the row-major position. -/
theorem pay_apply (v3 : Vec Ideal S1x128x4096 .f32) (v6 : Vec Ideal S4096x4096 .bf16) (v7 : Vec Ideal S1x4096x32 .f32)
    (v9 : Vec Ideal S4096x32 .f32) (u : Fin 1) (p : Fin 128) (q : Fin 4096) :
    k0_pay1 (F := Ideal) v3 v6 v7 v9 (ix3 u p q)
      = (∑ k : Fin 4096, v3 (ix3 (0 : Fin 1) p k) * v6 (ix2 q k))
        + (∑ r : Fin 32, (∑ k : Fin 4096, v3 (ix3 (0 : Fin 1) p k) * v7 (ix3 (0 : Fin 1) k r)) * v9 (ix2 q r))
          * Ideal.ofBits .f32 0x3F000000#32 := by
  unfold k0_pay1
  refine (shapeCast_ab_1ab_apply _ _ u p q).trans ?_
  show matmul dot_S128x4096_S4096x4096_S128x4096_1_1_0_0_n_n none
        (truncf .bf16 (shapeCast S128x4096 v3 shapeCasts_S1x128x4096_S128x4096) bitsLt_bf16_f32) v6
        (constant (F := Ideal) S128x4096 .f32 0x00000000#32) (ix2 p q)
      + matmul dot_S128x32_S4096x32_S128x4096_1_1_0_0_n_n none
          (matmul dot_S128x4096_S4096x32_S128x32_1_0_0_1_n_n none (shapeCast S128x4096 v3 shapeCasts_S1x128x4096_S128x4096)
            (shapeCast S4096x32 v7 shapeCasts_S1x4096x32_S4096x32) (constant (F := Ideal) S128x32 .f32 0x00000000#32))
          v9 (constant (F := Ideal) S128x4096 .f32 0x00000000#32) (ix2 p q)
        * Ideal.ofBits .f32 0x3F000000#32 = _
  rw [mm_base, mm_delta]
  congr 1
  · refine Finset.sum_congr rfl fun k _ => ?_
    show shapeCast S128x4096 v3 shapeCasts_S1x128x4096_S128x4096 (ix2 p k) * v6 (ix2 q k) = _
    rw [shapeCast_1ab_ab_apply]
  · congr 1
    refine Finset.sum_congr rfl fun r _ => ?_
    rw [mm_low]
    congr 1
    refine Finset.sum_congr rfl fun k _ => ?_
    rw [shapeCast_1ab_ab_apply, shapeCast_1ab_ab_apply]

end Cert.KernelIdeal.PayloadAt

end
-- ==== Proof.LoraSpec.lean ====
/-
  The specification: a frozen linear layer with a per-sample low-rank update, over the extended reals.

  Arrays: the input `x[b, s, i]` (4 × 2048 × 4096), the labeler index `idx[b]` (4 words), the weight `W[o, i]`
  (4096 × 4096), the five low-rank factors `A[l, i, r]` (5 × 4096 × 32) and the shared factor `Bw[o, r]`
  (4096 × 32). Batch `b` uses slice `l = lab idx b` of `A`. The result at `(b, s, o)` is

      Σᵢ x[b,s,i] · W[o,i]  +  ( Σᵣ ( Σᵢ x[b,s,i] · A[l,i,r] ) · Bw[o,r] ) · ½

  with the grouping exactly as written: the rank-32 intermediate `low[b,s,r] = Σᵢ x[b,s,i] · A[l,i,r]` is formed
  first, then contracted with `Bw`, then scaled, then added to the base term. No sum is reordered and no factor is
  moved across a sum, so nothing here needs the entries to be finite. The scale is the word `0x3F000000`, kept as
  a word: both programs carry the same one.
-/
import Idealize.ShloMosaic.PureOps.Ideal
import Idealize.ShloMosaic.Lib.ValueIdx

noncomputable section

open scoped BigOperators

namespace Cert.LoraSpec

open Idealize.ShloMosaic Idealize.ShloMosaic.ValueIdx

abbrev SX : Shape := ⟨3, ![4, 2048, 4096]⟩
abbrev SI : Shape := ⟨1, ![4]⟩
abbrev SW : Shape := ⟨2, ![4096, 4096]⟩
abbrev SA : Shape := ⟨3, ![5, 4096, 32]⟩
abbrev SB : Shape := ⟨2, ![4096, 32]⟩

/-- The slice of `A` batch `b` uses: its labeler index read unsigned, kept below `5` (for an index already in
    `[0, 5)` this is the index itself). -/
def lab (idx : IVec SI 32) (b : Fin 4) : Fin 5 := ⟨min (idx (ix1 b)).toNat 4, by omega⟩

/-- An index below `5` is its own slice. -/
theorem lab_val (idx : IVec SI 32) (b : Fin 4) (h : (idx (ix1 b)).toNat < 5) : (lab idx b).val = (idx (ix1 b)).toNat := by
  show min _ 4 = _
  omega

/-- The base term `Σᵢ x[b,s,i] · W[o,i]`. -/
def base (x : FVec Ideal SX .f32) (W : FVec Ideal SW .f32) (b : Fin 4) (s : Fin 2048) (o : Fin 4096) : EReal :=
  ∑ k : Fin 4096, x (ix3 b s k) * W (ix2 o k)

/-- The rank-32 intermediate `Σᵢ x[b,s,i] · A[l,i,r]` at slice `l`. -/
def low (x : FVec Ideal SX .f32) (A : FVec Ideal SA .f32) (l : Fin 5) (b : Fin 4) (s : Fin 2048) (r : Fin 32) : EReal :=
  ∑ k : Fin 4096, x (ix3 b s k) * A (ix3 l k r)

/-- The update before scaling, `Σᵣ low[b,s,r] · Bw[o,r]`. -/
def delta (x : FVec Ideal SX .f32) (A : FVec Ideal SA .f32) (Bw : FVec Ideal SB .f32) (l : Fin 5)
    (b : Fin 4) (s : Fin 2048) (o : Fin 4096) : EReal :=
  ∑ r : Fin 32, low x A l b s r * Bw (ix2 o r)

/-- The value at `(b, s, o)` for slice `l`. -/
def at3 (x : FVec Ideal SX .f32) (W : FVec Ideal SW .f32) (A : FVec Ideal SA .f32) (Bw : FVec Ideal SB .f32) (l : Fin 5)
    (b : Fin 4) (s : Fin 2048) (o : Fin 4096) : EReal :=
  base x W b s o + delta x A Bw l b s o * Ideal.ofBits .f32 0x3F000000#32

/-- The whole result array. -/
def G (x : FVec Ideal SX .f32) (idx : IVec SI 32) (W : FVec Ideal SW .f32) (A : FVec Ideal SA .f32) (Bw : FVec Ideal SB .f32) :
    FVec Ideal SX .f32 :=
  fun j => at3 x W A Bw (lab idx (j 0)) (j 0) (j 1) (j 2)

end Cert.LoraSpec

end
-- ==== Proof.TileValue.lean ====
/-
  One output tile is a tile of the specification. Take the body's four loaded values and suppose they are what
  they should be, entry by entry: the `x` tile is rows `128·s₀ … 128·s₀ + 127` of batch `b` of an array `X`, the
  scratch is an array `W`, the `lora_A` slice is slice `l` of an array `A`, and the last operand is an array `Bw`.
  Then entry `(p, q)` of the body's payload is the specification's value at `(b, 128·s₀ + p, q)` for slice `l`: the
  payload's three sums are, term by term, the specification's.
-/
import proofs.«161692_j38225208934786_1_alg».proof.Proof.PayloadIdeal
import proofs.«161692_j38225208934786_1_alg».proof.Proof.LoraSpec

noncomputable section

open scoped BigOperators

namespace Cert.KernelIdeal.TileValue

open Cert.KernelIdeal Cert.KernelIdeal.Gen Cert.KernelIdeal.PayloadAt Cert.LoraSpec
open Idealize.ShloMosaic Idealize.ShloMosaic.ValueIdx

theorem tile_eq (x0 : Vec Ideal S1x128x4096 .f32) (xs : Vec Ideal S4096x4096 .bf16) (x1 : Vec Ideal S1x4096x32 .f32)
    (x2 : Vec Ideal S4096x32 .f32)
    (X : FVec Ideal SX .f32) (W : FVec Ideal SW .f32) (A : FVec Ideal SA .f32) (Bw : FVec Ideal SB .f32)
    (l : Fin 5) (b : Fin 4) (row : Fin 128 → Fin 2048)
    (h0 : ∀ (p : Fin 128) (k : Fin 4096), x0 (ix3 (0 : Fin 1) p k) = X (ix3 b (row p) k))
    (hs : ∀ (q k : Fin 4096), xs (ix2 q k) = W (ix2 q k))
    (h1 : ∀ (k : Fin 4096) (r : Fin 32), x1 (ix3 (0 : Fin 1) k r) = A (ix3 l k r))
    (h2 : ∀ (q : Fin 4096) (r : Fin 32), x2 (ix2 q r) = Bw (ix2 q r))
    (u : Fin 1) (p : Fin 128) (q : Fin 4096) :
    k0_pay1 (F := Ideal) x0 xs x1 x2 (ix3 u p q) = at3 X W A Bw l b (row p) q := by
  rw [pay_apply]
  unfold at3 base delta low
  simp only [h0, hs, h1, h2]

end Cert.KernelIdeal.TileValue

end
-- ==== Proof.BlocksIdeal.lean ====
/-
  From the tiles to the whole result array of the idealized kernel, and its run read back.

  The 64 grid points tile the `[4, 2048, 4096]` output: point `t` writes rows `128·(t % 16) … + 127` of batch
  `t / 16`, all 4096 columns. Every point writes back, each writes the specification's values on its tile, and every
  index `(b, s, o)` lies in the tile of point `16·b + s / 128`; so after the run the output array IS the specification
  of the arrays the region found. Those are the arguments as launched, except the HBM operand, which is the weight
  converted to bf16 by the one host operation before the region — on extended reals a change of format is the
  identity, so it is the weight.
-/
import proofs.«161692_j38225208934786_1_alg».proof.Proof.CarriedIdeal
import proofs.«161692_j38225208934786_1_alg».proof.Proof.TileValue
import Idealize.ShloMosaic.Lib.Pipeline.Value
import Idealize.ShloMosaic.Lib.StableHlo.Run

set_option maxRecDepth 16384

noncomputable section

namespace Cert.KernelIdeal.Blocks

open Cert.KernelIdeal Cert.KernelIdeal.Gen Cert.KernelIdeal.Carried Cert.KernelIdeal.TileValue Cert.LoraSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Grid point `t` stages, of `x`, block `(t / 16, t % 16, 0)`: batch `t / 16`, sequence tile `t % 16`, the whole feature axis. -/
theorem idx0 : ∀ t : Fin grid0.N, cc0_transform_0 (grid0.coords t) 0 = t.val / 16
    ∧ cc0_transform_0 (grid0.coords t) 1 = t.val % 16 ∧ cc0_transform_0 (grid0.coords t) 2 = 0 := by decide +kernel

/-- … and writes back the output block with the same index. -/
theorem idx3 : ∀ t : Fin grid0.N, cc0_transform_4 (grid0.coords t) 0 = t.val / 16
    ∧ cc0_transform_4 (grid0.coords t) 1 = t.val % 16 ∧ cc0_transform_4 (grid0.coords t) 2 = 0 := by decide +kernel

/-- `lora_B_w` is one block, at index `(0, 0)`, at every point. -/
theorem idx2 : ∀ t : Fin grid0.N, cc0_transform_3 (grid0.coords t) 0 = 0 ∧ cc0_transform_3 (grid0.coords t) 1 = 0 := by decide +kernel

/-- The index map of the `lora_A` window reads the table at offset `t / 16`, the point's batch. -/
theorem off_eq : ∀ t : Fin grid0.N, k0_off1 (grid0.coords t) 0 = t.val / 16 := by decide +kernel

/-- The one index of the unit rectangle at offset `off` of the `[4]` table is index `off`. -/
theorem table_at (off : Fin 1 → Nat) (inb : ∀ a, off a + S1.size a ≤ S4.size a) (h1 : 0 < S1.numel) (b : Fin 4)
    (hoff : off 0 = b.val) : (Rect.unit (s := S4) off S1.size inb).emb (Shape.Idx.first h1) = ix1 b := by
  funext a; apply Fin.ext
  match a with
  | ⟨0, _⟩ =>
    show off 0 + 1 * 0 = b.val
    omega

/-- On axis 0 the `lora_A` window's block index at point `t` is the labeler index of the point's batch, read unsigned. -/
theorem slice_idx (hO : Ok m) (c : Dev nD) (t : Fin (cfgM m hO).N) (b : Fin 4) (hb : b.val = t.val / 16) :
    ((cfgM m hO).win 1).index t (0 : Fin 3) = (V m c main_arg1 (ix1 b)).toNat := by
  obtain rfl : c = 0 := Subsingleton.elim _ _
  exact congrArg (fun x => (tbl m 0 x).toNat) (table_at _ _ _ b ((off_eq t).trans hb.symm))

/-- WHAT POINT `t` WRITES BACK is block `t` of the specification of the arrays as the region finds them: the point's
    input blocks are the matching pieces of those arrays (each element of a block sits at block index × block extent +
    its own coordinate), the scratch is the bf16 weight, and the output block's element `(u, p, q)` sits at
    `(t / 16, 128 · (t % 16) + p, q)`. -/
theorem flushed_eq (hO : Ok m) (c : Dev nD) (hl : ∀ b : Fin 4, (V m c main_arg1 (ix1 b)).toNat < 5) (t : Fin (cfgM m hO).N) :
    (dats m hO 0 c).flushed 3 t = (((cfgM m hO).win 3).blk t).view.read (Elt Ideal)
      (G (V m c main_arg0) (V m c main_arg1) (V m c main_v0) (V m c main_arg3) (V m c main_arg4)) := by
  show ((cfgM m hO).win 3).cut ((cfgM m hO).grid.coords t) ((dats m hO 0 c).after 3 t) = _
  rw [after0_3, out_eq]
  funext j
  obtain ⟨u, p, q, rfl⟩ : ∃ (u : Fin 1) (p : Fin 128) (q : Fin 4096), j = ix3 u p q :=
    ⟨_, _, _, eq_ix3 (n0 := 1) (n1 := 128) (n2 := 4096) j⟩
  have ht : t.val < 64 := lt_of_lt_of_eq (t.isLt : t.val < grid0.N) N_0
  obtain ⟨f0, f1, f2⟩ := idx3 t
  obtain ⟨g0, g1, g2⟩ := idx0 t
  -- the batch and the rows of this tile
  let b : Fin 4 := ⟨t.val / 16, by omega⟩
  let row : Fin 128 → Fin 2048 := fun p => ⟨t.val % 16 * 128 + p.val, by have := p.isLt; omega⟩
  -- where entry (u, p, q) of the output block sits in the array
  have eout : (((cfgM m hO).win 3).blk t).view.emb (ix3 u p q) = ix3 b (row p) q := by
    funext a; apply Fin.ext
    match a with
    | ⟨0, _⟩ => show cc0_transform_4 (grid0.coords t) 0 * 1 + 1 * u.val = t.val / 16; rw [f0]; omega
    | ⟨1, _⟩ => show cc0_transform_4 (grid0.coords t) 1 * 128 + 1 * p.val = t.val % 16 * 128 + p.val; rw [f1]; omega
    | ⟨2, _⟩ => show cc0_transform_4 (grid0.coords t) 2 * 4096 + 1 * q.val = q.val; rw [f2]; omega
  show k0_pay1 (iblk m hO c 0 t) (V m c main_v0) (iblk m hO c 1 t) (iblk m hO c 2 t) (ix3 u p q)
    = G (V m c main_arg0) (V m c main_arg1) (V m c main_v0) (V m c main_arg3) (V m c main_arg4)
        ((((cfgM m hO).win 3).blk t).view.emb (ix3 u p q))
  rw [eout]
  refine (tile_eq (iblk m hO c 0 t) (V m c main_v0) (iblk m hO c 1 t) (iblk m hO c 2 t)
    (V m c main_arg0) (V m c main_v0) (V m c main_arg3) (V m c main_arg4) (lab (V m c main_arg1) b) b row ?_ ?_ ?_ ?_ u p q).trans ?_
  · intro p k
    have ein : (((cfgM m hO).win 0).blk t).view.emb (ix3 (0 : Fin 1) p k) = ix3 b (row p) k := by
      funext a; apply Fin.ext
      match a with
      | ⟨0, _⟩ => show cc0_transform_0 (grid0.coords t) 0 * 1 + 1 * 0 = t.val / 16; rw [g0]; omega
      | ⟨1, _⟩ => show cc0_transform_0 (grid0.coords t) 1 * 128 + 1 * p.val = t.val % 16 * 128 + p.val; rw [g1]; omega
      | ⟨2, _⟩ => show cc0_transform_0 (grid0.coords t) 2 * 4096 + 1 * k.val = k.val; rw [g2]; omega
    show V m c main_arg0 ((((cfgM m hO).win 0).blk t).view.emb (ix3 (0 : Fin 1) p k)) = V m c main_arg0 (ix3 b (row p) k)
    rw [ein]
  · intro q k; rfl
  · intro k r
    have ein : (((cfgM m hO).win 1).blk t).view.emb (ix3 (0 : Fin 1) k r) = ix3 (lab (V m c main_arg1) b) k r := by
      funext a; apply Fin.ext
      match a with
      | ⟨0, _⟩ =>
        show ((cfgM m hO).win 1).index t (0 : Fin 3) * 1 + 1 * 0 = (lab (V m c main_arg1) b).val
        rw [slice_idx m hO c t b rfl, lab_val _ b (hl b)]; omega
      | ⟨1, _⟩ => show 0 * 4096 + 1 * k.val = k.val; omega
      | ⟨2, _⟩ => show 0 * 32 + 1 * r.val = r.val; omega
    show V m c main_arg3 ((((cfgM m hO).win 1).blk t).view.emb (ix3 (0 : Fin 1) k r)) = V m c main_arg3 (ix3 (lab (V m c main_arg1) b) k r)
    rw [ein]
  · intro q r
    obtain ⟨k0, k1⟩ := idx2 t
    have ein : (((cfgM m hO).win 2).blk t).view.emb (ix2 q r) = ix2 q r := by
      funext a; apply Fin.ext
      match a with
      | ⟨0, _⟩ => show cc0_transform_3 (grid0.coords t) 0 * 4096 + 1 * q.val = q.val; rw [k0]; omega
      | ⟨1, _⟩ => show cc0_transform_3 (grid0.coords t) 1 * 32 + 1 * r.val = r.val; rw [k1]; omega
    show V m c main_arg4 ((((cfgM m hO).win 2).blk t).view.emb (ix2 q r)) = V m c main_arg4 (ix2 q r)
    rw [ein]
  · rfl

-- the array's shape appears here only through the pipeline's window record, inside a type
set_option backward.isDefEq.respectTransparency.types false in
/-- An index of the output array is in point `t`'s block iff each coordinate is in the block's range on its axis. -/
theorem mem_blk (hO : Ok m) (t : Fin (cfgM m hO).N) (i : S4x2048x4096.Idx) :
    i ∈ (((cfgM m hO).win 3).blk t).view.set ↔ ∀ a : Fin 3, ((cfgM m hO).win 3).index t a * S1x128x4096.size a ≤ (i a).val
      ∧ (i a).val < ((cfgM m hO).win 3).index t a * S1x128x4096.size a + S1x128x4096.size a := by
  show i ∈ ((View.whole main_v1).slice (((cfgM m hO).win 3).rect t)).set ↔ _
  rw [View.set_slice_whole]
  exact Rect.mem_set_unit

/-- Every index `(b, s, o)` of the output array is in the block of the flushing point `16·b + s / 128`. -/
theorem cover (hO : Ok m) (i : S4x2048x4096.Idx) :
    ∃ t : Fin (cfgM m hO).N, ((cfgM m hO).win 3).flush t = true ∧ i ∈ (((cfgM m hO).win 3).blk t).view.set := by
  have h0 : (i 0).val < 4 := (i 0).isLt
  have h1 : (i 1).val < 2048 := (i 1).isLt
  have h2 : (i 2).val < 4096 := (i 2).isLt
  have hN : (cfgM m hO).N = 64 := N_0
  let t : Fin (cfgM m hO).N := ⟨(i 0).val * 16 + (i 1).val / 128, by rw [hN]; omega⟩
  have tv : t.val = (i 0).val * 16 + (i 1).val / 128 := rfl
  obtain ⟨f0, f1, f2⟩ := idx3 t
  refine ⟨t, flush0_3 (adm m hO) t, ?_⟩
  rw [mem_blk]
  intro a
  match a with
  | ⟨0, _⟩ =>
    show cc0_transform_4 (grid0.coords t) 0 * 1 ≤ (i 0).val ∧ (i 0).val < cc0_transform_4 (grid0.coords t) 0 * 1 + 1
    rw [f0, tv]; omega
  | ⟨1, _⟩ =>
    show cc0_transform_4 (grid0.coords t) 1 * 128 ≤ (i 1).val ∧ (i 1).val < cc0_transform_4 (grid0.coords t) 1 * 128 + 128
    rw [f1, tv]; omega
  | ⟨2, _⟩ =>
    show cc0_transform_4 (grid0.coords t) 2 * 4096 ≤ (i 2).val ∧ (i 2).val < cc0_transform_4 (grid0.coords t) 2 * 4096 + 4096
    rw [f2]; omega

/-- THE OUTPUT ARRAY after the run: the specification of the arrays as the region finds them. -/
theorem final (hO : Ok m) (c : Dev nD) (hl : ∀ b : Fin 4, (V m c main_arg1 (ix1 b)).toNat < 5) :
    (dats m hO 0 c).arrAt 3 (cfgM m hO).N
      = G (V m c main_arg0) (V m c main_arg1) (V m c main_v0) (V m c main_arg3) (V m c main_arg4) :=
  (dats m hO 0 c).arrAt_eq_of_cover 3 _ (fun t _ => flushed_eq m hO c hl t) (cover m hO)

/-- The HBM operand the body copies into its scratch is the weight: the one host operation before the region changes
    its format to bf16, which on extended reals changes nothing. -/
theorem hbm_eq (c : Dev nD) : (V m c main_v0 : S4096x4096.Idx → EReal) = m ((c : Thread nD τ).loc main_arg2) := by
  dsimp only [V, hostOps0]
  after_results
  rfl

/-- THE RUN, READ: every weakly fair execution ends with the result array at the specification of the ARGUMENT arrays
    and the arguments unchanged — for labeler indices below `5`. -/
theorem run (hO : Ok m) (hl : ∀ (c : Dev nD) (b : Fin 4), (m ((c : Thread nD τ).loc main_arg1) (ix1 b)).toNat < 5) :
    θ_run defs (onTc (τ := τ) (main (F := Ideal))) ⟨m, fun _ => 0, ρ⟩ (fun r => ∀ c : Dev nD,
      r.2.mem ((c.tc : Thread nD τ).loc main_v1)
        = G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ⟨?_,
      ((h c).1 0).trans (((dats m hO 0 c).arrAt_in 0 rfl _).trans ((A_eq m hO c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).1 1).trans (((dats m hO 0 c).arrAt_in 1 rfl _).trans ((A_eq m hO c 1).trans (V_main_arg3 m c))),
      ((h c).1 2).trans (((dats m hO 0 c).arrAt_in 2 rfl _).trans ((A_eq m hO c 2).trans (V_main_arg4 m c)))⟩)
    (run_main m ρ hO)
  have hl' : ∀ b : Fin 4, (V m c main_arg1 (ix1 b)).toNat < 5 := fun b => by
    rw [V_main_arg1 m c]; exact hl c b
  refine ((h c).1 3).trans ((final m hO c hl').trans ?_)
  rw [hbm_eq m c, V_main_arg0 m c, V_main_arg1 m c, V_main_arg3 m c, V_main_arg4 m c]

end Cert.KernelIdeal.Blocks

end
-- ==== Proof.RefIsSpec.lean ====
/-
  The reference computes the specification. Its host program is, in order: the base product `x · Wᵀ` (a
  `dot_general` contracting the last axis of `x` with the last axis of `W`); the index normalisation jnp performs
  for `lora_A[labeler_index]` (a negative index has the axis extent 5 added), then a gather of whole
  `[4096, 32]` slices along axis 0, whose start index is read signed and clamped to `[0, 4]`; the batched product
  of `x` with the gathered slices; its product with `lora_B_wᵀ`; the scale by ½; the sum with the base term.

  For a labeler index in `[0, 5)` the normalisation and the clamp do nothing: the index is non-negative, so it is not
  shifted, and it is at most 4, so it is not clamped. The gathered slice for batch `b` is then slice
  `labeler_index[b]` itself, and each stage read at an index is the corresponding sum of the specification.
-/
import proofs.«161692_j38225208934786_1_alg».proof.Proof.Gen.ReferenceIdeal.Read
import proofs.«161692_j38225208934786_1_alg».proof.Proof.LoraSpec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.LoraSpec

local notation "gd" => gather_S5x4096x32_S4x1_S4x4096x32_12_0_n_n_0_1_1409632

/-- The gather of whole slices along axis 0, read at `(b, k, r)`: the operand at `(l, k, r)`, where `l` is the
    start index `idx[b, 0]` read signed and clamped to `[0, 4]`. On axis 0 (collapsed, the one the start index
    names) the coordinate is the clamped start; on axes 1 and 2 (the offset axes) it is the result's own. -/
theorem gather_apply {α : Type} (x : S5x4096x32.Idx → α) (idx : IVec S4x1 32) (b : Fin 4) (k : Fin 4096) (r : Fin 32) :
    Host.gather gd x idx (ix3 b k r) = x (ix3 ⟨min (idx (ix2 b 0)).toInt.toNat 4, by omega⟩ k r) := by
  unfold Host.gather
  congr 1
  funext a
  refine Fin.ext ?_
  have hb : ∀ a : Fin 3, GatherDims.batchCoord gd (ix3 b k r) a = 0 := fun a =>
    GatherDims.batchCoord_eq_zero _ _ _ List.not_mem_nil
  match a with
  | ⟨0, _⟩ =>
    show GatherDims.start gd (ix3 b k r) idx 0 + GatherDims.batchCoord gd (ix3 b k r) 0 + GatherDims.offCoord gd (ix3 b k r) 0 = _
    rw [hb, GatherDims.offCoord_eq_zero _ _ _ (fun h => ((GatherDims.mem_sKept _ _).mp h).1 (List.mem_singleton.mpr rfl))]
    simp only [Nat.add_zero]
    unfold GatherDims.start
    rw [dif_pos (show (0 : Fin 3) ∈ GatherDims.startIndexMap gd from List.mem_singleton.mpr rfl)]
    have hsi : GatherDims.siIdx gd (ix3 b k r) ⟨List.idxOf (0 : Fin 3) (GatherDims.startIndexMap gd),
        List.idxOf_lt_length_iff.2 (List.mem_singleton.mpr rfl)⟩ = ix2 b 0 := by
      funext c; refine Fin.ext ?_
      match c with
      | ⟨0, _⟩ => rfl
      | ⟨1, _⟩ => rfl
    rw [hsi]
    rfl
  | ⟨1, _⟩ =>
    show GatherDims.start gd (ix3 b k r) idx 1 + GatherDims.batchCoord gd (ix3 b k r) 1 + GatherDims.offCoord gd (ix3 b k r) 1 = k.val
    rw [hb]
    unfold GatherDims.start GatherDims.offCoord
    rw [dif_neg (show (1 : Fin 3) ∉ GatherDims.startIndexMap gd from by decide),
      dif_pos (show (1 : Fin 3) ∈ GatherDims.sKept gd from by decide)]
    show 0 + 0 + k.val = k.val
    omega
  | ⟨2, _⟩ =>
    show GatherDims.start gd (ix3 b k r) idx 2 + GatherDims.batchCoord gd (ix3 b k r) 2 + GatherDims.offCoord gd (ix3 b k r) 2 = r.val
    rw [hb]
    unfold GatherDims.start GatherDims.offCoord
    rw [dif_neg (show (2 : Fin 3) ∉ GatherDims.startIndexMap gd from by decide),
      dif_pos (show (2 : Fin 3) ∈ GatherDims.sKept gd from by decide)]
    show 0 + 0 + r.val = r.val
    omega

/-- A word below `5` unsigned is non-negative signed, and reads the same both ways. -/
theorem toInt_of_lt_five (w : BitVec 32) (h : w.toNat < 5) : w.toInt = (w.toNat : Int) := by
  rw [BitVec.toInt_eq_toNat_cond, if_pos (by omega)]

/-- For a labeler index below `5` the start index the gather reads for batch `b`, clamped, is the index itself:
    the test "index < 0" fails, so the select keeps the index, and `min · 4` keeps a number below `5`. -/
theorem slice_eq (x1 : IVec S4 32) (b : Fin 4) (h : (x1 (ix1 b)).toNat < 5) :
    min (val_main_v6 (F := Ideal) x1 (ix2 b 0)).toInt.toNat 4 = (lab x1 b).val := by
  have e6 : val_main_v6 (F := Ideal) x1 (ix2 b 0) = x1 (ix1 b) := by
    rw [val_main_v6_apply, val_main_v5_apply]
    have ei : idx_main_v6 (ix2 b 0) = ix1 b := funext fun a => Fin.ext (by match a with | ⟨0, _⟩ => rfl)
    rw [ei]
    have hc : val_main_v2 (F := Ideal) x1 (ix1 b) = 0#1 := by
      apply eq_zero_of_ne_one
      intro h1
      have h2 : (x1 (ix1 b)).toInt < (0#32 : BitVec 32).toInt := IntOp.cmpi_slt.1 h1
      rw [toInt_of_lt_five _ h, show (0#32 : BitVec 32).toInt = 0 from by decide] at h2
      omega
    rw [hc, select_zero]
  rw [e6, toInt_of_lt_five _ h, lab_val x1 b h]
  simp only [Int.toNat_natCast]
  omega

/-- The reference's last stage is the specification, for labeler indices in range. -/
theorem ref_eq_G (x0 : FVec Ideal S4x2048x4096 .f32) (x1 : IVec S4 32) (x2 : FVec Ideal S4096x4096 .f32)
    (x3 : FVec Ideal S5x4096x32 .f32) (x4 : FVec Ideal S4096x32 .f32)
    (hl : ∀ b : Fin 4, (x1 (ix1 b)).toNat < 5) :
    val_main_v12 (F := Ideal) x0 x1 x2 x3 x4 = G x0 x1 x2 x3 x4 := by
  funext i
  obtain ⟨b, s, o, rfl⟩ : ∃ (b : Fin 4) (s : Fin 2048) (o : Fin 4096), i = ix3 b s o := ⟨i 0, i 1, i 2, eq_ix3 i⟩
  rw [val_main_v12_apply, val_main_v0_apply, val_main_v11_apply, val_main_v9_apply, val_main_v10_apply, val_main_cst_apply]
  show (∑ k, x0 (lidx_main_v0 (ix3 b s o) k) * x2 (ridx_main_v0 (ix3 b s o) k))
      + (∑ r, val_main_v8 (F := Ideal) x0 x1 x3 (lidx_main_v9 (ix3 b s o) r) * x4 (ridx_main_v9 (ix3 b s o) r))
        * Ideal.ofBits .f32 0x3F000000#32
    = base x0 x2 b s o + delta x0 x3 x4 (lab x1 b) b s o * Ideal.ofBits .f32 0x3F000000#32
  -- the operand indices of the three contractions, by coordinates
  have e0l : ∀ k : Fin 4096, lidx_main_v0 (ix3 b s o) k = ix3 b s k := fun k => funext fun a => by
    match a with | ⟨0, _⟩ => rfl | ⟨1, _⟩ => rfl | ⟨2, _⟩ => rfl
  have e0r : ∀ k : Fin 4096, ridx_main_v0 (ix3 b s o) k = ix2 o k := fun k => funext fun a => by
    match a with | ⟨0, _⟩ => rfl | ⟨1, _⟩ => rfl
  have e9l : ∀ r : Fin 32, lidx_main_v9 (ix3 b s o) r = ix3 b s r := fun r => funext fun a => by
    match a with | ⟨0, _⟩ => rfl | ⟨1, _⟩ => rfl | ⟨2, _⟩ => rfl
  have e9r : ∀ r : Fin 32, ridx_main_v9 (ix3 b s o) r = ix2 o r := fun r => funext fun a => by
    match a with | ⟨0, _⟩ => rfl | ⟨1, _⟩ => rfl
  have e8l : ∀ (r : Fin 32) (k : Fin 4096), lidx_main_v8 (ix3 b s r) k = ix3 b s k := fun r k => funext fun a => by
    match a with | ⟨0, _⟩ => rfl | ⟨1, _⟩ => rfl | ⟨2, _⟩ => rfl
  have e8r : ∀ (r : Fin 32) (k : Fin 4096), ridx_main_v8 (ix3 b s r) k = ix3 b k r := fun r k => funext fun a => by
    match a with | ⟨0, _⟩ => rfl | ⟨1, _⟩ => rfl | ⟨2, _⟩ => rfl
  -- the rank-32 intermediate: the gathered slice for batch b is slice (lab x1 b)
  have e8 : ∀ r : Fin 32, val_main_v8 (F := Ideal) x0 x1 x3 (ix3 b s r) = low x0 x3 (lab x1 b) b s r := fun r => by
    rw [val_main_v8_apply]
    unfold low
    refine Finset.sum_congr rfl fun k _ => ?_
    rw [e8l, e8r]
    unfold val_main_v7
    rw [gather_apply]
    exact congrArg (fun l : Fin 5 => x0 (ix3 b s k) * x3 (ix3 l k r)) (Fin.ext (slice_eq x1 b (hl b)))
  unfold base delta
  congr 1
  · exact Finset.sum_congr rfl fun k _ => by rw [e0l, e0r]
  · congr 1
    exact Finset.sum_congr rfl fun r _ => by rw [e9l, e9r, e8]

end Cert.ReferenceIdeal.RefValue

end
-- ==== Proof.lean ====
/-
  A linear layer with a per-sample low-rank update, as a tiled TPU kernel, against its jnp reference.

  Both programs compute, for `x : [4, 2048, 4096]`, labeler indices `idx : [4]`, a weight `W : [4096, 4096]`,
  low-rank factors `A : [5, 4096, 32]` and `Bw : [4096, 32]`,

      out[b, s, o] = Σᵢ x[b,s,i] · W[o,i]  +  ( Σᵣ ( Σᵢ x[b,s,i] · A[idx[b],i,r] ) · Bw[o,r] ) · ½ .

  The kernel walks a `4 × 16` grid, one `128 × 4096` output tile per point; it keeps a bf16 copy of `W` in a scratch
  buffer that the first tile of each batch refills from HBM, and it fetches slice `idx[b]` of `A` by using the index
  word itself as a block index. The reference forms the three contractions on whole arrays and selects the slices by
  a gather, after jnp's normalisation of negative indices.

  The precondition asks the float inputs to be finite and the labeler indices to lie in `[0, 5)`. Only the second is
  used. It is what makes the kernel's slice fetch stay inside `A` (both frame conjuncts), and under it the slice the
  reference gathers is the one the kernel fetches. Over the extended reals the two programs then agree entry by
  entry: the bf16 copy of `W` is `W` (a change of float format is the identity there), each of the kernel's three matrix
  products into a zero accumulator is the corresponding plain sum, the grouping of the sums is the same on both sides,
  and the scale ½ is the same word in both. No sum is reordered, so finiteness is never needed.

  The idealization pass rewrote nothing in the kernel, so that conjunct is `True`.
-/
import proofs.«161692_j38225208934786_1_alg».proof.Defs
import proofs.«161692_j38225208934786_1_alg».proof.Proof.Gen.Kernel
import proofs.«161692_j38225208934786_1_alg».proof.Proof.Gen.Kernel.Skeleton
import proofs.«161692_j38225208934786_1_alg».proof.Proof.Gen.Kernel.Launch
import proofs.«161692_j38225208934786_1_alg».proof.Proof.Gen.Kernel.Points
import proofs.«161692_j38225208934786_1_alg».proof.Proof.Gen.Kernel.Frame
import proofs.«161692_j38225208934786_1_alg».proof.Proof.Gen.KernelIdeal
import proofs.«161692_j38225208934786_1_alg».proof.Proof.Gen.KernelIdeal.Skeleton
import proofs.«161692_j38225208934786_1_alg».proof.Proof.Gen.KernelIdeal.Launch
import proofs.«161692_j38225208934786_1_alg».proof.Proof.Gen.KernelIdeal.Points
import proofs.«161692_j38225208934786_1_alg».proof.Proof.Gen.KernelIdeal.Frame
import proofs.«161692_j38225208934786_1_alg».proof.Proof.Gen.ReferenceIdeal
import proofs.«161692_j38225208934786_1_alg».proof.Proof.Gen.ReferenceIdeal.Run
import proofs.«161692_j38225208934786_1_alg».proof.Proof.Gen.ReferenceIdeal.Read
import proofs.«161692_j38225208934786_1_alg».proof.Proof.Gen.Pre_finite_inputs
import proofs.«161692_j38225208934786_1_alg».proof.Proof.LabelRange
import proofs.«161692_j38225208934786_1_alg».proof.Proof.TablesBits
import proofs.«161692_j38225208934786_1_alg».proof.Proof.TablesIdeal
import proofs.«161692_j38225208934786_1_alg».proof.Proof.BlocksIdeal
import proofs.«161692_j38225208934786_1_alg».proof.Proof.RefIsSpec
import Idealize.ShloMosaic.Adequacy
import Idealize.ShloMosaic.Init

noncomputable section

namespace Cert.Proof

open Idealize.ShloMosaic Idealize.ShloMosaic.ValueIdx Idealize.SL.Sem

/-- The word-level kernel runs and leaves its arguments alone: under the precondition every labeler index is below
    `5`, so every slice of `lora_A` it fetches lies inside the array. -/
theorem frame_k : Cert.frame_Kernel := fun m ρ h =>
  Cert.Kernel.Gen.frame m ρ (Cert.Kernel.Tables.ok_of_arg m fun x =>
    Cert.LabelRange.labels_lt_five _ _ _ _ _ (h 0) x)

/-- The same for the idealized kernel. -/
theorem frame_ki : Cert.frame_KernelIdeal := fun m ρ h =>
  Cert.KernelIdeal.Gen.frame m ρ (Cert.KernelIdeal.Tables.ok_of_arg m fun x =>
    Cert.LabelRange.labels_lt_five _ _ _ _ _ (h 0) x)

/-- The reference is a straight line of host operations: it runs, and writes none of its arguments. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Over the extended reals both programs end with the result array at the specification of the argument arrays. -/
theorem algebraic : Cert.algebraic_KernelIdeal_ReferenceIdeal := by
  intro m ρ m' ρ' hpre hagree
  have hl : ∀ (c : Dev Cert.KernelIdeal.nD) (b : Fin 4),
      (m ((c.tc : Thread Cert.KernelIdeal.nD Cert.KernelIdeal.τ).loc Cert.KernelIdeal.main_arg1) (ix1 b)).toNat < 5 :=
    fun c b => Cert.LabelRange.labels_lt_five _ _ _ _ _ (hpre c) (ix1 b)
  have hO : Cert.KernelIdeal.Gen.Ok m := Cert.KernelIdeal.Tables.ok_of_arg m fun x =>
    Cert.LabelRange.labels_lt_five _ _ _ _ _ (hpre 0) x
  refine ⟨_, Cert.KernelIdeal.Blocks.run m ρ hO hl, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v12_eq,
    (hagree c).1, (hagree c).2.1, (hagree c).2.2.1, (hagree c).2.2.2.1, (hagree c).2.2.2.2]
  exact Cert.ReferenceIdeal.RefValue.ref_eq_G _ _ _ _ _ (hl c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
